-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S16384x1 : Shape := ⟨2, ![16384, 1]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384x1 : S_.BroadcastsInDim S16384x1 (![] : Fin 0 → Fin S16384x1.rank)
  reducesTo_S16384x1_S_d0_1 : S16384x1.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  main_v18

def fn {F : FTy → Type} [FloatOps F] (main_arg0 : FVec F S4x2048x4096 .f32) (main_arg1 : IVec S16384x4096 32) (main_arg2 : FVec F S16384x1 .f32) (main_arg3 : FVec F S16384x1 .f32) (main_arg4 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384x1 .f32 := Host.absf main_arg2
  let main_cst_0 : FVec F S_ .f32 := constant S_ .f32 0x7F800000#32
  let main_v5 : FVec F S16384x1 .f32 := broadcastInDim S16384x1 ![] bcast_S_S16384x1 main_cst_0
  let main_v6 : IVec S16384x1 1 := cmpf .olt main_v4 main_v5
  let main_c_1 : IVec S_ 1 := constantI S_ 1 1#1
  let main_v7 : IVec S_ 1 := (fun x v => Host.reduce IntOp.andi x v reducesTo_S16384x1_S_d0_1 h_S_) main_v6 main_c_1
  let main_v8 : IVec S_ 1 := andi main_v3 main_v7
  let main_v9 : FVec F S16384x1 .f32 := Host.absf main_arg3
  let main_cst_2 : FVec F S_ .f32 := constant S_ .f32 0x7F800000#32
  let main_v10 : FVec F S16384x1 .f32 := broadcastInDim S16384x1 ![] bcast_S_S16384x1 main_cst_2
  let main_v11 : IVec S16384x1 1 := cmpf .olt main_v9 main_v10
  let main_c_3 : IVec S_ 1 := constantI S_ 1 1#1
  let main_v12 : IVec S_ 1 := (fun x v => Host.reduce IntOp.andi x v reducesTo_S16384x1_S_d0_1 h_S_) main_v11 main_c_3
  let main_v13 : IVec S_ 1 := andi main_v8 main_v12
  let main_v14 : FVec F S16384 .f32 := Host.absf main_arg4
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_v13 main_v16
-- ==== Kernel.lean ====
abbrev S4x2048x4096 : Shape := ⟨3, ![4, 2048, 4096]⟩
abbrev S16384x4096 : Shape := ⟨2, ![16384, 4096]⟩
abbrev S16384x1 : Shape := ⟨2, ![16384, 1]⟩
abbrev S16384 : Shape := ⟨1, ![16384]⟩
abbrev S8192x4096 : Shape := ⟨2, ![8192, 4096]⟩
abbrev S8192x16384 : Shape := ⟨2, ![8192, 16384]⟩
abbrev S512x4096 : Shape := ⟨2, ![512, 4096]⟩
abbrev S256x4096 : Shape := ⟨2, ![256, 4096]⟩
abbrev S256x1 : Shape := ⟨2, ![256, 1]⟩
abbrev S256 : Shape := ⟨1, ![256]⟩
abbrev S512x256 : Shape := ⟨2, ![512, 256]⟩
abbrev S1x256 : Shape := ⟨2, ![1, 256]⟩
abbrev S4x2048x16384 : Shape := ⟨3, ![4, 2048, 16384]⟩

abbrev nBuf : Space → Nat
  | .hbm => 8
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S16384x1, .f32⟩
  | .hbm, ⟨3, _⟩ => ⟨S16384x1, .f32⟩
  | .hbm, ⟨4, _⟩ => ⟨S16384, .f32⟩
  | .hbm, ⟨5, _⟩ => ⟨S8192x4096, .f32⟩
  | .hbm, ⟨6, _⟩ => ⟨S8192x16384, .f32⟩
  | .hbm, ⟨7, _⟩ => ⟨S4x2048x16384, .f32⟩
  | .local _ .vmem, ⟨0, _⟩ => ⟨S512x4096, .f32⟩
  | .local _ .vmem, ⟨1, _⟩ => ⟨S512x4096, .f32⟩
  | .local _ .vmem, ⟨2, _⟩ => ⟨S256x4096, .i32⟩
  | .local _ .vmem, ⟨3, _⟩ => ⟨S256x4096, .i32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256, .f32⟩
  | .local _ .vmem, ⟨9, _⟩ => ⟨S256, .f32⟩
  | .local _ .vmem, ⟨10, _⟩ => ⟨S512x256, .f32⟩
  | .local _ .vmem, ⟨11, _⟩ => ⟨S512x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x2048x4096_S8192x4096 : S4x2048x4096.ShapeCasts S8192x4096
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  broadcasts_S256x1_S256x4096 : S256x1.Broadcasts S256x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S8192x16384_S4x2048x16384 : S8192x16384.ShapeCasts S4x2048x16384
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .i32 = 32 ∨ (Rect.block (s := S16384x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S16384x1.size a
  hwx0_2 : ∀ i : grid0.Coords, EltTy.bits .f32 = 32 ∨ (Rect.block (s := S16384x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S16384x1.size a
  hwx0_3 : ∀ i : grid0.Coords, EltTy.bits .f32 = 32 ∨ (Rect.block (s := S16384x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S16384.size a
  hwx0_4 : ∀ i : grid0.Coords, EltTy.bits .f32 = 32 ∨ (Rect.block (s := S16384) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S8192x16384.size a
  hwx0_5 : ∀ i : grid0.Coords, EltTy.bits .f32 = 32 ∨ (Rect.block (s := S8192x16384) S512x256.size (cc0_transform_5 i) (hinb0_5 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S16384x1 : Shape := ⟨2, ![16384, 1]⟩
abbrev S16384 : Shape := ⟨1, ![16384]⟩
abbrev S4x2048x16384 : Shape := ⟨3, ![4, 2048, 16384]⟩
abbrev S1x1x16384 : Shape := ⟨3, ![1, 1, 16384]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S16384x1, .f32⟩
  | .hbm, ⟨3, _⟩ => ⟨S16384x1, .f32⟩
  | .hbm, ⟨4, _⟩ => ⟨S16384, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S4x2048x16384, .f32⟩
  | .hbm, ⟨11, _⟩ => ⟨S1x1x16384, .f32⟩
  | .hbm, ⟨12, _⟩ => ⟨S4x2048x16384, .f32⟩
  | .hbm, ⟨13, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S16384x1_S16384x4096_0_1 : S16384x1.BroadcastsInDim S16384x4096 (![0, 1] : Fin 2 → Fin S16384x4096.rank)
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.Spec.lean ====
/-
  The mathematics of a per-channel dequantized linear layer, with no program in sight.

  A weight matrix is stored as integers `q[o, k]` with one scale `s[o]` and one zero point `z[o]` per output
  channel; the real weight is `(q[o, k] - z[o]) * s[o]`.  The layer sends a row `x[r, ·]` of 4096 features to
  `y[r, o] = (∑ k, x[r, k] * weight[o, k]) + b[o]`.  Everything is read on the extended reals, so the only
  laws used anywhere below are those of a commutative additive monoid for the sum; no law that fails at an
  infinity (cancellation, distributivity) is needed, because both programs multiply and add in the same order.

  `rows` is the layer over the 8192 flattened rows, `out` the same numbers laid out as 4 × 2048 rows.
  `reshape_rows`: flattening the leading two axes of the input, applying `rows`, and unflattening the result
  is `out` — row `b * 2048 + s` of the flat arrays is row `(b, s)` of the three-axis ones.
-/
import Idealize.ShloMosaic.PureOps.Ideal
import Idealize.ShloMosaic.Lib.ValueIdx
import Idealize.ShloMosaic.Lib.Pipeline.Value

noncomputable section

open scoped BigOperators

namespace Cert.QLinear

open Idealize.ShloMosaic Idealize.ShloMosaic.ValueIdx

/-- The activations as given: 4 × 2048 rows of 4096 features. -/
abbrev SX3 : Shape := ⟨3, ![4, 2048, 4096]⟩
/-- The activations with the two leading axes flattened: 8192 rows. -/
abbrev SX2 : Shape := ⟨2, ![8192, 4096]⟩
/-- The quantized weights: 16384 output channels by 4096 features. -/
abbrev SQ : Shape := ⟨2, ![16384, 4096]⟩
/-- One number per output channel, kept as a column. -/
abbrev SC : Shape := ⟨2, ![16384, 1]⟩
/-- One number per output channel, as a vector. -/
abbrev SB : Shape := ⟨1, ![16384]⟩
/-- The result over the flattened rows. -/
abbrev SO2 : Shape := ⟨2, ![8192, 16384]⟩
/-- The result as 4 × 2048 rows. -/
abbrev SO3 : Shape := ⟨3, ![4, 2048, 16384]⟩

/-- The one column of a per-channel column vector. -/
abbrev col0 : Fin 1 := ⟨0, Nat.one_pos⟩

/-- The dequantized weight of output channel `o` at feature `k`: `(q[o, k] - z[o]) * s[o]`, the integer read
    exactly as a real. -/
def weight (q : SQ.Idx → BitVec 32) (s z : SC.Idx → EReal) (o : Fin 16384) (k : Fin 4096) : EReal :=
  (FloatOps.sitofp (F := Ideal) .f32 (q (ix2 o k)) - z (ix2 o col0)) * s (ix2 o col0)

/-- One entry of the layer: the row's features against the channel's weights, plus the channel's bias. -/
def entry (row : Fin 4096 → EReal) (q : SQ.Idx → BitVec 32) (s z : SC.Idx → EReal) (b : SB.Idx → EReal) (o : Fin 16384) : EReal :=
  (∑ k : Fin 4096, row k * weight q s z o k) + b (ix1 o)

/-- The layer over the flattened rows. -/
def rows (x : SX2.Idx → EReal) (q : SQ.Idx → BitVec 32) (s z : SC.Idx → EReal) (b : SB.Idx → EReal) : SO2.Idx → EReal :=
  fun j => entry (fun k => x (ix2 (⟨(j 0).val, (j 0).isLt⟩ : Fin 8192) k)) q s z b ⟨(j 1).val, (j 1).isLt⟩

/-- The layer over the 4 × 2048 rows. -/
def out (x : SX3.Idx → EReal) (q : SQ.Idx → BitVec 32) (s z : SC.Idx → EReal) (b : SB.Idx → EReal) : SO3.Idx → EReal :=
  fun i => entry (fun k => x (ix3 (⟨(i 0).val, (i 0).isLt⟩ : Fin 4) (⟨(i 1).val, (i 1).isLt⟩ : Fin 2048) k)) q s z b ⟨(i 2).val, (i 2).isLt⟩

/-- Flatten the rows, apply the layer, unflatten: the layer over the 4 × 2048 rows. Row `(b, s)` sits at
    row-major position `b * 2048 + s` among the flattened rows, on the input side and on the output side alike. -/
theorem reshape_rows (x : SX3.Idx → EReal) (q : SQ.Idx → BitVec 32) (s z : SC.Idx → EReal) (b : SB.Idx → EReal)
    (hx : SX3.ShapeCasts SX2) (ho : SO2.ShapeCasts SO3) :
    shapeCast SO3 (rows (shapeCast SX2 x hx) q s z b) ho = out x q s z b := by
  funext i
  have h0 : (i 0).val < 4 := (i 0).isLt
  have h1 : (i 1).val < 2048 := (i 1).isLt
  have h2 : (i 2).val < 16384 := (i 2).isLt
  refine (shapeCast_apply _ ho i (ix2 (⟨(i 0).val * 2048 + (i 1).val, by omega⟩ : Fin 8192) (⟨(i 2).val, h2⟩ : Fin 16384)) ?_).trans ?_
  · rw [Shape.rowMajor_val_two, Shape.rowMajor_val_three]
    rfl
  · unfold rows out
    refine congrArg (fun row => entry row q s z b ⟨(i 2).val, h2⟩) (funext fun k => ?_)
    refine shapeCast_apply x hx _ _ ?_
    rw [Shape.rowMajor_val_two, Shape.rowMajor_val_three]
    rfl

end Cert.QLinear

end
-- ==== Proof.RefIsSpec.lean ====
/-
  The reference program computes `out`.

  Read one operation at a time, entry `(b, s, o)` of the reference's result is
  `(∑ k, x[b, s, k] * ((q[o, k] - z[o, 0]) * s[o, 0])) + bias[o]`: the contraction of the matrix product
  runs over the feature axis of both operands, the per-channel columns are broadcast along the features, and
  the bias is broadcast along the rows.  That is `out` spelt with the reference's own index functions, so
  what is left is to see that those index functions pick the coordinates `out` names.
-/
import proofs.«129867_j26731876451110_1_alg».proof.Proof.Gen.ReferenceIdeal.Read
import proofs.«129867_j26731876451110_1_alg».proof.Proof.Spec

noncomputable section

open scoped BigOperators

namespace Cert.QLinear

open Idealize.ShloMosaic Idealize.ShloMosaic.ValueIdx
open Cert.ReferenceIdeal Cert.ReferenceIdeal.Read

/-- The reference's result, as a function of its five arguments, is the layer over the 4 × 2048 rows. -/
theorem reference_is_out (x : S4x2048x4096.Idx → EReal) (q : S16384x4096.Idx → BitVec 32)
    (s z : S16384x1.Idx → EReal) (b : S16384.Idx → EReal) :
    val_main_v8 (F := Ideal) x q s z b = out x q s z b := by
  funext i
  -- the left factor of the product: row (b, s), feature k
  have el : ∀ k : Fin 4096, lidx_main_v5 i k
      = ix3 (⟨(i 0).val, (i 0).isLt⟩ : Fin 4) (⟨(i 1).val, (i 1).isLt⟩ : Fin 2048) k :=
    fun k => funext fun a => Fin.ext (by match a with | ⟨0, _⟩ => rfl | ⟨1, _⟩ => rfl | ⟨2, _⟩ => rfl)
  -- the right factor: channel o, feature k
  have er : ∀ k : Fin 4096, ridx_main_v5 i k = ix2 (⟨(i 2).val, (i 2).isLt⟩ : Fin 16384) k :=
    fun k => funext fun a => Fin.ext (by match a with | ⟨0, _⟩ => rfl | ⟨1, _⟩ => rfl)
  -- the per-channel columns, broadcast along the features, are read at (o, 0)
  have ez : ∀ k : Fin 4096, idx_main_v1 (ix2 (⟨(i 2).val, (i 2).isLt⟩ : Fin 16384) k)
      = ix2 (⟨(i 2).val, (i 2).isLt⟩ : Fin 16384) col0 :=
    fun k => funext fun a => Fin.ext (by match a with | ⟨0, _⟩ => rfl | ⟨1, _⟩ => rfl)
  have es : ∀ k : Fin 4096, idx_main_v3 (ix2 (⟨(i 2).val, (i 2).isLt⟩ : Fin 16384) k)
      = ix2 (⟨(i 2).val, (i 2).isLt⟩ : Fin 16384) col0 :=
    fun k => funext fun a => Fin.ext (by match a with | ⟨0, _⟩ => rfl | ⟨1, _⟩ => rfl)
  -- the bias, broadcast along the rows, is read at o
  have eb : idx_main_v6 (idx_main_v7 i) = ix1 (⟨(i 2).val, (i 2).isLt⟩ : Fin 16384) :=
    funext fun a => Fin.ext (by match a with | ⟨0, _⟩ => rfl)
  rw [val_main_v8_apply, val_main_v5_apply, val_main_v7_apply, val_main_v6_apply, eb]
  unfold out entry
  refine congrArg (· + b (ix1 (⟨(i 2).val, (i 2).isLt⟩ : Fin 16384))) (Finset.sum_congr rfl fun k _ => ?_)
  rw [el k, er k, val_main_v4_apply, val_main_v2_apply, val_main_v0_apply, val_main_v1_apply, val_main_v3_apply,
    ez k, es k]
  rfl

end Cert.QLinear

end
-- ==== Proof.Payload.lean ====
/-
  What the kernel body stores, read at one entry of the block.

  The body holds a 512-row block of activations, a 256-channel block of quantized weights with the channels'
  scale and zero-point columns, and the channels' 256 biases.  It dequantizes the weight block entrywise —
  the scale and zero-point columns broadcast along the 4096 features —, multiplies the activation block by
  the transposed weight block into a zero accumulator (the contraction runs over the feature axis of both),
  and adds the biases broadcast along the rows.  On the extended reals the two narrowings to a shorter float
  format are the identity and the zero accumulator adds nothing, so entry `(p, r)` of the stored block is
  `(∑ k, x[p, k] * ((q[r, k] - z[r, 0]) * s[r, 0])) + bias[r]`.
-/
import proofs.«129867_j26731876451110_1_alg».proof.Proof.Gen.KernelIdeal.Skeleton
import proofs.«129867_j26731876451110_1_alg».proof.Proof.Spec
import Idealize.ShloMosaic.PureOps.Ideal.Laws
import Idealize.ShloMosaic.Lib.ValueIdx
import Idealize.ShloMosaic.Lib.Pipeline.Value

noncomputable section

open scoped BigOperators

namespace Cert.QLinear

open Idealize.ShloMosaic Idealize.ShloMosaic.ValueIdx
open Cert.KernelIdeal Cert.KernelIdeal.Gen

/-- The matrix product's dimension numbers: rows of the left operand, rows of the right operand, one contracted
    axis (the second of each). -/
abbrev bodyDot := dot_S512x4096_S256x4096_S512x256_1_1_0_0_n_n

/-- The left operand is read at the output's row … -/
theorem bodyDot_lhs0 (j : S512x256.Idx) (c : bodyDot.contr.Idx) : (bodyDot.lhsIdx j c 0).val = (j 0).val := by
  unfold DotDims.lhsIdx
  rw [dif_neg (show ¬(0 : Fin S512x4096.rank) ∈ bodyDot.lhsBatch by decide),
    dif_pos (show (0 : Fin S512x4096.rank) ∈ bodyDot.lhsNonContracting by decide)]
  rfl
/-- … and the contracted feature; -/
theorem bodyDot_lhs1 (j : S512x256.Idx) (c : bodyDot.contr.Idx) : (bodyDot.lhsIdx j c 1).val = (c ⟨0, by decide⟩).val :=
  bodyDot.lhsIdx_val_of_single rfl j c
/-- the right operand at the output's column (a weight channel) … -/
theorem bodyDot_rhs0 (j : S512x256.Idx) (c : bodyDot.contr.Idx) : (bodyDot.rhsIdx j c 0).val = (j 1).val := by
  unfold DotDims.rhsIdx
  rw [dif_neg (show ¬(0 : Fin S256x4096.rank) ∈ bodyDot.rhsBatch by decide),
    dif_pos (show (0 : Fin S256x4096.rank) ∈ bodyDot.rhsNonContracting by decide)]
  rfl
/-- … and the contracted feature. -/
theorem bodyDot_rhs1 (j : S512x256.Idx) (c : bodyDot.contr.Idx) : (bodyDot.rhsIdx j c 1).val = (c ⟨0, by decide⟩).val :=
  bodyDot.rhsIdx_val_of_single rfl j c

/-- A product into the zero accumulator, at entry `(p, r)`: the sum over the 4096 features of row `p` of the left
    operand against row `r` of the right one. -/
theorem product_apply (l : FVec Ideal S512x4096 .bf16) (w : FVec Ideal S256x4096 .bf16) (p : Fin 512) (r : Fin 256) :
    matmul bodyDot none l w (constant S512x256 .f32 0x00000000#32) (ix2 p r) = ∑ k : Fin 4096, l (ix2 p k) * w (ix2 r k) := by
  simp only [matmul]
  rw [Ideal.matmul_constant_zero_apply, ← Equiv.sum_comp (contrEquiv1 bodyDot 4096 rfl rfl).symm]
  refine Finset.sum_congr rfl fun k _ => ?_
  have hk := contrEquiv1_symm_val bodyDot 4096 rfl rfl k
  have el : bodyDot.lhsIdx (ix2 p r) ((contrEquiv1 bodyDot 4096 rfl rfl).symm k) = ix2 p k := funext fun a => Fin.ext (by
    match a with
    | ⟨0, _⟩ => exact bodyDot_lhs0 _ _
    | ⟨1, _⟩ => exact (bodyDot_lhs1 _ _).trans hk)
  have er : bodyDot.rhsIdx (ix2 p r) ((contrEquiv1 bodyDot 4096 rfl rfl).symm k) = ix2 r k := funext fun a => Fin.ext (by
    match a with
    | ⟨0, _⟩ => exact bodyDot_rhs0 _ _
    | ⟨1, _⟩ => exact (bodyDot_rhs1 _ _).trans hk)
  rw [el, er]

/-- A per-channel column broadcast along the features reads, at `(r, k)`, the column's entry `r`. -/
theorem column_apply (v : FVec Ideal S256x1 .f32) (r : Fin 256) (k : Fin 4096) :
    broadcastTo S256x4096 v broadcasts_S256x1_S256x4096 (ix2 r k) = v (ix2 r col0) :=
  broadcastTo_apply v broadcasts_S256x1_S256x4096 (ix2 r k) (ix2 r col0) (fun a => match a with
    | ⟨0, _⟩ => by show r.val = if (256 : Nat) = 1 then 0 else r.val; rw [if_neg (by decide)]
    | ⟨1, _⟩ => by show 0 = if (1 : Nat) = 1 then 0 else k.val; rw [if_pos rfl])

/-- The biases laid as one row and broadcast along the 512 rows read, at `(p, r)`, bias `r`. -/
theorem bias_apply (v : FVec Ideal S256 .f32) (p : Fin 512) (r : Fin 256) :
    broadcastTo S512x256 (shapeCast S1x256 v shapeCasts_S256_S1x256) broadcasts_S1x256_S512x256 (ix2 p r) = v (ix1 r) := by
  refine (broadcastTo_apply _ broadcasts_S1x256_S512x256 (ix2 p r) (ix2 col0 r) (fun a => match a with
    | ⟨0, _⟩ => by show 0 = if (1 : Nat) = 1 then 0 else p.val; rw [if_pos rfl]
    | ⟨1, _⟩ => by show r.val = if (256 : Nat) = 1 then 0 else r.val; rw [if_neg (by decide)])).trans ?_
  refine shapeCast_apply v shapeCasts_S256_S1x256 (ix2 col0 r) (ix1 r) ?_
  rw [Shape.rowMajor_val_one, Shape.rowMajor_val_two]
  show r.val = 0 * 256 + r.val
  omega

/-- Entry `(p, r)` of the block the body stores, from the blocks it loaded: quantized weights `q`, zero points `z`,
    scales `s`, activations `x`, biases `b`. -/
theorem stored_apply (q : IVec S256x4096 32) (z s : FVec Ideal S256x1 .f32) (x : FVec Ideal S512x4096 .f32)
    (b : FVec Ideal S256 .f32) (p : Fin 512) (r : Fin 256) :
    k0_pay1 (F := Ideal) q z s x b (ix2 p r)
      = (∑ k : Fin 4096, x (ix2 p k) * ((FloatOps.sitofp (F := Ideal) .f32 (q (ix2 r k)) - z (ix2 r col0)) * s (ix2 r col0)))
        + b (ix1 r) := by
  unfold k0_pay1
  refine congrArg₂ (· + ·) ?_ (bias_apply b p r)
  refine (product_apply _ _ p r).trans (Finset.sum_congr rfl fun k _ => ?_)
  rw [shapeCast_self]
  show x (ix2 p k) * ((FloatOps.sitofp (F := Ideal) .f32 (q (ix2 r k)) - broadcastTo S256x4096 z broadcasts_S256x1_S256x4096 (ix2 r k))
      * broadcastTo S256x4096 s broadcasts_S256x1_S256x4096 (ix2 r k)) = _
  rw [column_apply, column_apply]

end Cert.QLinear

end
-- ==== Proof.Blocks.lean ====
/-
  What the result over the flattened rows holds after the launch.

  The launch runs the body once per point of a 16 × 64 grid.  At point `t` the body is given row block `t / 64` of the
  flattened activations (512 rows, all 4096 features) and channel block `t % 64` of the quantized weights, scales,
  zero points and biases (256 channels), and its stored block is written back as the block at row block `t / 64`,
  column block `t % 64` of the result.  These relations between the launch's index maps are decided once over the
  1024 points (`index_facts`).

  An entry of a block handed to the body is the entry of the whole array at block index × block size + the
  coordinate inside the block (`xblock_apply` … `bblock_apply`).  With the body's stored entry from the payload
  module this says: what point `t` writes back is block `t` of ONE function of the whole arrays, `rows`
  (`written_back`).  The 16 × 64 output blocks tile the 8192 × 16384 result — row `R`, column `C` lies in the block
  of point `(R / 512) * 64 + C / 256` (`covered`) —, so after the launch the result is `rows` of the arrays the launch
  found (`result_rows`).
-/
import proofs.«129867_j26731876451110_1_alg».proof.Proof.Gen.KernelIdeal.Frame
import proofs.«129867_j26731876451110_1_alg».proof.Proof.Payload
import proofs.«129867_j26731876451110_1_alg».proof.Proof.Spec
import Idealize.ShloMosaic.Lib.Pipeline.Value

noncomputable section

open scoped BigOperators

namespace Cert.QLinear

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The zero offsets of a whole-buffer load or store, in the two spellings the body's rectangles use. -/
theorem zero2 : (![0, 0] : Fin 2 → Nat) = fun _ => 0 := funext fun a => by fin_cases a <;> rfl
theorem zero1 : (![0] : Fin 1 → Nat) = fun _ => 0 := funext fun a => by fin_cases a <;> rfl

/-- The launch's index maps, decided over the grid: the activation window follows the output's row block and sits at feature
    block 0; the weight, scale, zero-point and bias windows follow the output's column block; the output's block at point
    `t` is row block `t / 64`, column block `t % 64`. -/
theorem index_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = win0_5.index t (1 : Fin 2) ∧ win0_3.index t (1 : Fin 2) = 0
    ∧ win0_4.index t (0 : Fin 1) = win0_5.index t (1 : Fin 2)
    ∧ win0_5.index t (0 : Fin 2) = t.val / 64 ∧ win0_5.index t (1 : Fin 2) = t.val % 64 :=
  (by decide +kernel : ∀ t : Fin grid0.N, _)

/-- An entry of the activation block at a point is the entry of the flattened activations the block's rectangle names. -/
theorem xblock_apply (c : Dev nD) (t : Fin cfg0.N) (y : S512x4096.Idx) (i : S8192x4096.Idx)
    (h0 : (i 0).val = win0_0.index t (0 : Fin 2) * 512 + (y 0).val)
    (h1 : (i 1).val = win0_0.index t (1 : Fin 2) * 4096 + (y 1).val) :
    (iblk m c 0 t : Vec Ideal S512x4096 .f32) y = (V m c main_v0 : S8192x4096.Idx → EReal) i := by
  unfold iblk
  rw [View.read_apply]
  show V m c main_v0 _ = V m c main_v0 _
  refine congrArg (V m c main_v0) (funext fun a => Fin.ext ?_)
  match a with
  | ⟨0, _⟩ => show win0_0.index t (0 : Fin 2) * 512 + 1 * (y 0).val = (i 0).val; omega
  | ⟨1, _⟩ => show win0_0.index t (1 : Fin 2) * 4096 + 1 * (y 1).val = (i 1).val; omega

/-- The same for the quantized-weight block, -/
theorem qblock_apply (c : Dev nD) (t : Fin cfg0.N) (y : S256x4096.Idx) (i : S16384x4096.Idx)
    (h0 : (i 0).val = win0_1.index t (0 : Fin 2) * 256 + (y 0).val)
    (h1 : (i 1).val = win0_1.index t (1 : Fin 2) * 4096 + (y 1).val) :
    (iblk m c 1 t : IVec S256x4096 32) y = (V m c main_arg1 : S16384x4096.Idx → BitVec 32) i := by
  unfold iblk
  rw [View.read_apply]
  show V m c main_arg1 _ = V m c main_arg1 _
  refine congrArg (V m c main_arg1) (funext fun a => Fin.ext ?_)
  match a with
  | ⟨0, _⟩ => show win0_1.index t (0 : Fin 2) * 256 + 1 * (y 0).val = (i 0).val; omega
  | ⟨1, _⟩ => show win0_1.index t (1 : Fin 2) * 4096 + 1 * (y 1).val = (i 1).val; omega

/-- the scale column's block, -/
theorem sblock_apply (c : Dev nD) (t : Fin cfg0.N) (y : S256x1.Idx) (i : S16384x1.Idx)
    (h0 : (i 0).val = win0_2.index t (0 : Fin 2) * 256 + (y 0).val)
    (h1 : (i 1).val = win0_2.index t (1 : Fin 2) * 1 + (y 1).val) :
    (iblk m c 2 t : Vec Ideal S256x1 .f32) y = (V m c main_arg2 : S16384x1.Idx → EReal) i := by
  unfold iblk
  rw [View.read_apply]
  show V m c main_arg2 _ = V m c main_arg2 _
  refine congrArg (V m c main_arg2) (funext fun a => Fin.ext ?_)
  match a with
  | ⟨0, _⟩ => show win0_2.index t (0 : Fin 2) * 256 + 1 * (y 0).val = (i 0).val; omega
  | ⟨1, _⟩ => show win0_2.index t (1 : Fin 2) * 1 + 1 * (y 1).val = (i 1).val; omega

/-- the zero-point column's block, -/
theorem zblock_apply (c : Dev nD) (t : Fin cfg0.N) (y : S256x1.Idx) (i : S16384x1.Idx)
    (h0 : (i 0).val = win0_3.index t (0 : Fin 2) * 256 + (y 0).val)
    (h1 : (i 1).val = win0_3.index t (1 : Fin 2) * 1 + (y 1).val) :
    (iblk m c 3 t : Vec Ideal S256x1 .f32) y = (V m c main_arg3 : S16384x1.Idx → EReal) i := by
  unfold iblk
  rw [View.read_apply]
  show V m c main_arg3 _ = V m c main_arg3 _
  refine congrArg (V m c main_arg3) (funext fun a => Fin.ext ?_)
  match a with
  | ⟨0, _⟩ => show win0_3.index t (0 : Fin 2) * 256 + 1 * (y 0).val = (i 0).val; omega
  | ⟨1, _⟩ => show win0_3.index t (1 : Fin 2) * 1 + 1 * (y 1).val = (i 1).val; omega

/-- and the bias block. -/
theorem bblock_apply (c : Dev nD) (t : Fin cfg0.N) (y : S256.Idx) (i : S16384.Idx)
    (h0 : (i 0).val = win0_4.index t (0 : Fin 1) * 256 + (y 0).val) :
    (iblk m c 4 t : Vec Ideal S256 .f32) y = (V m c main_arg4 : S16384.Idx → EReal) i := by
  unfold iblk
  rw [View.read_apply]
  show V m c main_arg4 _ = V m c main_arg4 _
  refine congrArg (V m c main_arg4) (funext fun a => Fin.ext ?_)
  match a with
  | ⟨0, _⟩ => show win0_4.index t (0 : Fin 1) * 256 + 1 * (y 0).val = (i 0).val; omega

/-- Entry `(p, r)` of the output block at a point sits at this row of the result over the flattened rows … -/
theorem oblock_row (t : Fin cfg0.N) (p : Fin 512) (r : Fin 256) :
    ((((cfg0.win 5).blk t).view.emb (ix2 p r)) 0).val = win0_5.index t (0 : Fin 2) * 512 + p.val := by
  show win0_5.index t (0 : Fin 2) * 512 + 1 * p.val = _
  omega
/-- … and at this column. -/
theorem oblock_col (t : Fin cfg0.N) (p : Fin 512) (r : Fin 256) :
    ((((cfg0.win 5).blk t).view.emb (ix2 p r)) 1).val = win0_5.index t (1 : Fin 2) * 256 + r.val := by
  show win0_5.index t (1 : Fin 2) * 256 + 1 * r.val = _
  omega

/-- What point `t` writes back is block `t` of `rows` of the arrays as the launch finds them: the stored entry `(p, r)`
    reads row `p` of activation block `t / 64` and channel `r` of channel block `t % 64`, which are row
    `(t / 64) * 512 + p` and channel `(t % 64) * 256 + r` of the whole arrays — the row and column of the result the
    entry is written to. -/
theorem written_back (c : Dev nD) (t : Fin cfg0.N) :
    (dats m 0 c).flushed 5 t = ((cfg0.win 5).blk t).view.read (Elt Ideal)
      (rows (V m c main_v0) (V m c main_arg1) (V m c main_arg2) (V m c main_arg3) (V m c main_arg4)) := by
  show (cfg0.win 5).cut (grid0.coords t) ((dats m 0 c).after 5 t) = _
  rw [after0_5]
  unfold out0_5
  rw [View.canon_unit_zero zero2]
  simp only [View.ld_unit_zero (S := S256x4096) zero2, View.ld_unit_zero (S := S256x1) zero2,
    View.ld_unit_zero (S := S512x4096) zero2, View.ld_unit_zero (S := S256) zero1]
  funext y
  obtain ⟨p, r, rfl⟩ : ∃ (p : Fin 512) (r : Fin 256), y = ix2 p r := ⟨y 0, y 1, eq_ix2 y⟩
  show k0_pay1 (F := Ideal) (iblk m c 1 t) (iblk m c 3 t) (iblk m c 2 t) (iblk m c 0 t) (iblk m c 4 t) (ix2 p r)
    = rows (V m c main_v0) (V m c main_arg1) (V m c main_arg2) (V m c main_arg3) (V m c main_arg4)
        (((cfg0.win 5).blk t).view.emb (ix2 p r))
  refine (stored_apply (iblk m c 1 t) (iblk m c 3 t) (iblk m c 2 t) (iblk m c 0 t) (iblk m c 4 t) p r).trans ?_
  obtain ⟨e00, e01, e10, e11, e20, e21, e30, e31, e40, -, -⟩ := index_facts t
  have hr := oblock_row t p r
  have hc := oblock_col t p r
  unfold rows entry weight
  refine congrArg₂ (· + ·) (Finset.sum_congr rfl fun k _ => ?_) ?_
  · refine congrArg₂ (· * ·) ?_ (congrArg₂ (· * ·) (congrArg₂ (· - ·) (congrArg (FloatOps.sitofp (F := Ideal) .f32) ?_) ?_) ?_)
    · refine xblock_apply m c t (ix2 p k) _ ?_ ?_
      · show ((((cfg0.win 5).blk t).view.emb (ix2 p r)) 0).val = win0_0.index t (0 : Fin 2) * 512 + p.val
        omega
      · show k.val = win0_0.index t (1 : Fin 2) * 4096 + k.val
        omega
    · refine qblock_apply m c t (ix2 r k) _ ?_ ?_
      · show ((((cfg0.win 5).blk t).view.emb (ix2 p r)) 1).val = win0_1.index t (0 : Fin 2) * 256 + r.val
        omega
      · show k.val = win0_1.index t (1 : Fin 2) * 4096 + k.val
        omega
    · refine zblock_apply m c t (ix2 r col0) _ ?_ ?_
      · show ((((cfg0.win 5).blk t).view.emb (ix2 p r)) 1).val = win0_3.index t (0 : Fin 2) * 256 + r.val
        omega
      · show 0 = win0_3.index t (1 : Fin 2) * 1 + 0
        omega
    · refine sblock_apply m c t (ix2 r col0) _ ?_ ?_
      · show ((((cfg0.win 5).blk t).view.emb (ix2 p r)) 1).val = win0_2.index t (0 : Fin 2) * 256 + r.val
        omega
      · show 0 = win0_2.index t (1 : Fin 2) * 1 + 0
        omega
  · refine bblock_apply m c t (ix1 r) _ ?_
    show ((((cfg0.win 5).blk t).view.emb (ix2 p r)) 1).val = win0_4.index t (0 : Fin 1) * 256 + r.val
    omega

/-- An entry of the result is in point `t`'s output block exactly when each of its coordinates is in the block's range. -/
theorem mem_oblock (t : Fin cfg0.N) (i : S8192x16384.Idx) :
    i ∈ ((cfg0.win 5).blk t).view.set ↔ ∀ a : Fin 2, win0_5.index t a * S512x256.size a ≤ (i a).val
      ∧ (i a).val < win0_5.index t a * S512x256.size a + S512x256.size a := by
  show i ∈ ((View.whole main_v1).slice (win0_5.rect t)).set ↔ _
  rw [View.set_slice_whole, Rect.mem_set_unit]
  exact Iff.rfl

/-- Every entry of the result is written back by some point: row `R`, column `C` by point `(R / 512) * 64 + C / 256`. -/
theorem covered (i : S8192x16384.Idx) :
    ∃ t : Fin cfg0.N, (cfg0.win 5).flush t = true ∧ i ∈ ((cfg0.win 5).blk t).view.set := by
  have hN : cfg0.N = 1024 := N_0
  have hi0 : (i 0).val < 8192 := (i 0).isLt
  have hi1 : (i 1).val < 16384 := (i 1).isLt
  obtain ⟨t, ht⟩ : ∃ t : Fin cfg0.N, t.val = (i 0).val / 512 * 64 + (i 1).val / 256 :=
    ⟨⟨(i 0).val / 512 * 64 + (i 1).val / 256, by rw [hN]; omega⟩, rfl⟩
  obtain ⟨-, -, -, -, -, -, -, -, -, e50, e51⟩ := index_facts t
  refine ⟨t, flush0_5 t, ?_⟩
  rw [mem_oblock]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 256 ≤ (i 1).val ∧ (i 1).val < win0_5.index t (1 : Fin 2) * 256 + 256
    omega

/-- After the launch the result over the flattened rows is `rows` of the arrays the launch found. -/
theorem result_rows (c : Dev nD) :
    (dats m 0 c).arrAt 5 cfg0.N
      = rows (V m c main_v0) (V m c main_arg1) (V m c main_arg2) (V m c main_arg3) (V m c main_arg4) :=
  (dats m 0 c).arrAt_eq_of_cover 5 _ (fun t _ => written_back m c t) covered

end Cert.QLinear

end
-- ==== Proof.KernelRun.lean ====
/-
  The kernel's program, run: its result is `out` of its arguments.

  Around the launch the program reshapes twice.  Before it, the activations' two leading axes are flattened
  (4 × 2048 rows become 8192), so the array the launch finds for its first window is that flattening
  (`found_activations`); the other four windows' arrays are arguments no earlier line writes.  After it, the
  result over the flattened rows — `rows` of what the launch found (the blocks module) — is unflattened to
  4 × 2048 rows (`tail_result`).  Flatten, apply the layer, unflatten is the layer over the 4 × 2048 rows
  (`reshape_rows`), so the program's result is `out` of its five arguments (`result_out`), and the run of the
  whole program ends with the result there and the arguments as they were (`kernel_run`).
-/
import proofs.«129867_j26731876451110_1_alg».proof.Proof.Blocks
import Idealize.ShloMosaic.Lib.StableHlo.Run

noncomputable section

namespace Cert.QLinear

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-- The launch finds, for its activation window, the activations with their two leading axes flattened. -/
theorem found_activations (c : Dev nD) :
    (V m c main_v0 : S8192x4096.Idx → EReal)
      = shapeCast S8192x4096 (m ((c : Thread nD τ).loc main_arg0) : S4x2048x4096.Idx → EReal) shapeCasts_S4x2048x4096_S8192x4096 := by
  show StableHlo.after hostOps0 (fun b => m (c, b)) (Proc.devRef .tc main_v0) = _
  after_results
  rfl

/-- The program's result is the launch's result array, unflattened. -/
theorem tail_result (c : Dev nD) :
    (Pipeline.afterTail₀ cfgs (dats m) 0 (V0 m) [hostOps1] c main_v2 : S4x2048x16384.Idx → EReal)
      = shapeCast S4x2048x16384 ((dats m 0 c).arrAt 5 cfg0.N : S8192x16384.Idx → EReal) shapeCasts_S8192x16384_S4x2048x16384 := by
  unfold Pipeline.afterTail₀
  show StableHlo.after hostOps1 _ (Proc.devRef .tc main_v2) = _
  after_results
  exact congrArg (fun A : S8192x16384.Idx → EReal => shapeCast S4x2048x16384 A shapeCasts_S8192x16384_S4x2048x16384)
    (Pipeline.withArrays_arr spec0 launch0.win.arr_inj c (V0 m c) (fun w => (dats m 0 c).arrAt w cfg0.N) 5)

/-- The program's result is the layer over the 4 × 2048 rows, of the five arguments. -/
theorem result_out (c : Dev nD) :
    (Pipeline.afterTail₀ cfgs (dats m) 0 (V0 m) [hostOps1] c main_v2 : S4x2048x16384.Idx → EReal)
      = out (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  refine (tail_result m c).trans ?_
  rw [result_rows, found_activations, V_main_arg1, V_main_arg2, V_main_arg3, V_main_arg4]
  exact reshape_rows _ _ _ _ _ _ _

/-- Every weakly fair execution of the kernel's program terminates, without a fault, with the result at `out` of the
    arguments and the arguments unchanged. -/
theorem kernel_run : θ_run defs (onTc (τ := τ) (main (F := Ideal))) ⟨m, fun _ => 0, ρ⟩ (fun r => ∀ c : Dev nD,
      r.2.mem ((c.tc : Thread nD τ).loc main_v2)
        = out (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v2 (Pipeline.mem_restRefs_of main_v2 (by decide) (by decide))).trans (result_out m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.QLinear

end
-- ==== Proof.lean ====
/-
  A per-channel dequantized linear layer, computed block by block, against the same layer computed whole.

  Both programs take activations `x` (4 × 2048 rows of 4096 features), integer weights `q` (16384 channels by 4096
  features) with one scale `s[o]` and one zero point `z[o]` per channel, and a bias `b[o]`, and both compute
      y[b, s, o] = (∑ k, x[b, s, k] * ((q[o, k] - z[o]) * s[o])) + b[o].
  The reference dequantizes the whole weight matrix, contracts it with the activations over the feature axis and adds
  the bias broadcast along the rows.  The kernel flattens the rows, and for each of 16 × 64 blocks of the result
  (512 rows by 256 channels) dequantizes that block's channels, multiplies the block's rows by them into a zero
  accumulator, and adds the channels' biases; it then unflattens the rows.  The kernel narrows both factors to a shorter
  float format before multiplying; read on the extended reals a change of format is the identity, and the
  idealized kernel is the kernel's own text read there (nothing was rewritten, so `preserves` is `True`).

  The two results agree entry by entry with no algebra beyond re-indexing: each entry is the same sum of the same
  products in the same order of multiplication, plus the same bias, and the zero accumulator adds nothing.  No law
  that fails at an infinity is used, so the finiteness of the inputs is never opened.

  The modules: `Spec` states the layer (`rows` over flattened rows, `out` over 4 × 2048 rows) and that flatten, `rows`,
  unflatten is `out`; `RefIsSpec` reads the reference's result as `out`; `Payload` reads one entry of the block the
  kernel body stores; `Blocks` shows that what each grid point writes back is its block of `rows` and that the blocks
  tile the result; `KernelRun` carries that through the two reshapes to the run of the kernel's program.  Here the
  five claims are assembled: the two kernels' frames are the generated ones, the reference's frame is its run with the
  result dropped, and the value claim sets the two runs side by side at the one function `out`.
-/
import proofs.«129867_j26731876451110_1_alg».proof.Defs
import proofs.«129867_j26731876451110_1_alg».proof.Proof.Gen.Kernel
import proofs.«129867_j26731876451110_1_alg».proof.Proof.Gen.Kernel.Skeleton
import proofs.«129867_j26731876451110_1_alg».proof.Proof.Gen.Kernel.Launch
import proofs.«129867_j26731876451110_1_alg».proof.Proof.Gen.Kernel.Points
import proofs.«129867_j26731876451110_1_alg».proof.Proof.Gen.Kernel.Frame
import proofs.«129867_j26731876451110_1_alg».proof.Proof.Gen.KernelIdeal
import proofs.«129867_j26731876451110_1_alg».proof.Proof.Gen.KernelIdeal.Skeleton
import proofs.«129867_j26731876451110_1_alg».proof.Proof.Gen.KernelIdeal.Launch
import proofs.«129867_j26731876451110_1_alg».proof.Proof.Gen.KernelIdeal.Points
import proofs.«129867_j26731876451110_1_alg».proof.Proof.Gen.KernelIdeal.Frame
import proofs.«129867_j26731876451110_1_alg».proof.Proof.Gen.ReferenceIdeal
import proofs.«129867_j26731876451110_1_alg».proof.Proof.Gen.Pre_finite_inputs
import proofs.«129867_j26731876451110_1_alg».proof.Proof.Gen.ReferenceIdeal.Run
import proofs.«129867_j26731876451110_1_alg».proof.Proof.Gen.ReferenceIdeal.Read
import proofs.«129867_j26731876451110_1_alg».proof.Proof.RefIsSpec
import proofs.«129867_j26731876451110_1_alg».proof.Proof.KernelRun
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and keeps its arguments: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel's text was rewritten to read it on the extended reals. -/
theorem preserves : Cert.preserves_Kernel_KernelIdeal := trivial

/-- From memories that agree on the five arguments, both programs end with `out` of those arguments as their result:
    the kernel by its blocks (`kernel_run`), the reference by its operations read one at a time (`reference_is_out`). -/
theorem algebraic : Cert.algebraic_KernelIdeal_ReferenceIdeal := by
  intro m ρ m' ρ' _ hagree
  refine ⟨_, Cert.QLinear.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.QLinear.reference_is_out,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
